-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S128x8192 : Shape := ⟨2, ![128, 8192]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.UnitScale.lean ====
/-
  The one equation this certificate leaves after both runs are read: the reference scales the noise by √σ with σ = 1,
  taking the square root on the host, where the kernel multiplies by the literal 1 — the value of the same f32 word
  0x3F800000. On the extended reals √1 = 1, so index by index both programs compute
      min (3, max (−3, x i + 1 · noise i)),
  the clamp written with the same two words 0x40400000 and 0xC0400000 on both sides. No input needs to be finite: nothing
  is cancelled or distributed, the two terms differ only in how the scale factor 1 is spelt.
-/
import proofs.«161870_j21242908246680_2_alg».proof.Defs
import proofs.«161870_j21242908246680_2_alg».proof.Proof.Gen.KernelIdeal.Value
import proofs.«161870_j21242908246680_2_alg».proof.Proof.Gen.ReferenceIdeal.Run

noncomputable section

open Idealize.ShloMosaic Idealize.ShloMosaic.TcCoe

namespace Cert.ReferenceIdeal.UnitScale

open Cert.ReferenceIdeal Cert.ReferenceIdeal.Gen

/-- The f32 word 0x3F800000 denotes the real number 1. -/
theorem one_word : Ideal.ofBits .f32 0x3F800000#32 = ((1 : ℝ) : EReal) := by
  simp [Ideal.ofBits, Ideal.ieee, -EReal.coe_mul]; norm_num

/-- The square root of that word's value is the value itself: √1 = 1. -/
theorem sqrt_one_word : Ideal.sqrt (Ideal.ofBits .f32 0x3F800000#32) = Ideal.ofBits .f32 0x3F800000#32 := by
  rw [one_word, Ideal.sqrt_coe, if_neg (by norm_num), Real.sqrt_one]

/-- The reference's result term is the kernel's whole-array function of the same two arrays: both are the clamp to
    [−3, 3] of `x + s · noise`, the reference's scale `s = √1` being the kernel's literal `1`. -/
theorem result_eq (x noise : FVec Ideal S4096x8192 .f32) :
    minimumf (broadcastInDim S4096x8192 ![] bcast_S_S4096x8192 (id (constant S_ .f32 0x40400000#32)))
      (maximumf (broadcastInDim S4096x8192 ![] bcast_S_S4096x8192 (id (constant S_ .f32 0xC0400000#32)))
        (addf x (mulf (broadcastInDim S4096x8192 ![] bcast_S_S4096x8192 (Host.sqrt (constant S_ .f32 0x3F800000#32))) noise)))
    = Cert.KernelIdeal.Value.G2 (F := Ideal) x noise := by
  funext i
  simp only [Cert.KernelIdeal.Value.G2, minimumf, maximumf, addf, mulf, Host.sqrt, broadcastInDim, constant, id,
    Ideal.hostUnary_sqrt_def, Ideal.ofBits_def, sqrt_one_word]

end Cert.ReferenceIdeal.UnitScale

end
-- ==== Proof.lean ====
/-
  The kernel clamps `x + 1 · noise` to [−3, 3], block of 128 rows by block of 128 rows over a 4096 × 8192 array; the
  reference clamps `x + √1 · noise` over the whole array at once. Read on the extended reals the kernel's result array is
  one function of its two argument arrays, index by index (its generated value leg), and the reference's result is its
  operations' composed term (its generated run); the two agree because √1 = 1 (Proof/UnitScale.lean). Each program's
  frame is its run with the result forgotten; the idealization changed nothing in the kernel, so `preserves` has no
  conjunct to prove.
-/
import proofs.«161870_j21242908246680_2_alg».proof.Defs
import proofs.«161870_j21242908246680_2_alg».proof.Proof.Gen.Kernel.Frame
import proofs.«161870_j21242908246680_2_alg».proof.Proof.Gen.KernelIdeal.Value
import proofs.«161870_j21242908246680_2_alg».proof.Proof.Gen.Pre_finite_inputs
import proofs.«161870_j21242908246680_2_alg».proof.Proof.Gen.ReferenceIdeal.Run
import proofs.«161870_j21242908246680_2_alg».proof.Proof.UnitScale
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x` and `noise`, the kernel's result array is the clamp of `x + 1 · noise` and the
    reference's the clamp of `x + √1 · noise`: equal at every index. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.ReferenceIdeal.UnitScale.result_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
